-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S100000 : Shape := ⟨1, ![100000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x64 .f32) (main_arg7 : FVec F S64 .f32) (main_arg8 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x64 .f32) (main_arg1 : IVec S2x1250000 32) (main_arg2 : IVec S100000 32) (main_arg3 : FVec F S64x64 .f32) (main_arg4 : FVec F S64 .f32) (main_arg5 : FVec F S64x64 .f32) (main_arg6 : FVec F S64x64 .f32) (main_arg7 : FVec F S64 .f32) (main_arg8 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x64 : Shape := ⟨2, ![100000, 64]⟩
abbrev S2x1250000 : Shape := ⟨2, ![2, 1250000]⟩
abbrev S100000 : Shape := ⟨1, ![100000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000x1 : Shape := ⟨2, ![100000, 1]⟩
abbrev S1x64 : Shape := ⟨2, ![1, 64]⟩
abbrev S10000x64 : Shape := ⟨2, ![10000, 64]⟩

abbrev nBuf : Space → Nat
  | .hbm => 67
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S1x1250000, .i32⟩
  | .hbm, ⟨10, _⟩ => ⟨S1250000, .i32⟩
  | .hbm, ⟨11, _⟩ => ⟨S1x1250000, .i32⟩
  | .hbm, ⟨12, _⟩ => ⟨S1250000, .i32⟩
  | .hbm, ⟨13, _⟩ => ⟨S_, .i32⟩
  | .hbm, ⟨14, _⟩ => ⟨S1250000, .i32⟩
  | .hbm, ⟨15, _⟩ => ⟨S1250000, .i1⟩
  | .hbm, ⟨16, _⟩ => ⟨S_, .i32⟩
  | .hbm, ⟨17, _⟩ => ⟨S1250000, .i32⟩
  | .hbm, ⟨18, _⟩ => ⟨S1250000, .i32⟩
  | .hbm, ⟨19, _⟩ => ⟨S1250000, .i32⟩
  | .hbm, ⟨20, _⟩ => ⟨S1250000x1, .i32⟩
  | .hbm, ⟨21, _⟩ => ⟨S1250000x64, .f32⟩
  | .hbm, ⟨22, _⟩ => ⟨S_, .f32⟩
  | .hbm, ⟨23, _⟩ => ⟨S100000x64, .f32⟩
  | .hbm, ⟨24, _⟩ => ⟨S1250000x1, .i32⟩
  | .hbm, ⟨25, _⟩ => ⟨S100000x64, .f32⟩
  | .hbm, ⟨26, _⟩ => ⟨S_, .f32⟩
  | .hbm, ⟨27, _⟩ => ⟨S1250000, .f32⟩
  | .hbm, ⟨28, _⟩ => ⟨S_, .f32⟩
  | .hbm, ⟨29, _⟩ => ⟨S100000, .f32⟩
  | .hbm, ⟨30, _⟩ => ⟨S1250000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S_, .i32⟩
  | .hbm, ⟨41, _⟩ => ⟨S1250000, .i32⟩
  | .hbm, ⟨42, _⟩ => ⟨S1250000, .i1⟩
  | .hbm, ⟨43, _⟩ => ⟨S_, .i32⟩
  | .hbm, ⟨44, _⟩ => ⟨S1250000, .i32⟩
  | .hbm, ⟨45, _⟩ => ⟨S1250000, .i32⟩
  | .hbm, ⟨46, _⟩ => ⟨S1250000, .i32⟩
  | .hbm, ⟨47, _⟩ => ⟨S1250000x1, .i32⟩
  | .hbm, ⟨48, _⟩ => ⟨S1250000x64, .f32⟩
  | .hbm, ⟨49, _⟩ => ⟨S_, .f32⟩
  | .hbm, ⟨50, _⟩ => ⟨S100000x64, .f32⟩
  | .hbm, ⟨51, _⟩ => ⟨S1250000x1, .i32⟩
  | .hbm, ⟨52, _⟩ => ⟨S100000x64, .f32⟩
  | .hbm, ⟨53, _⟩ => ⟨S_, .f32⟩
  | .hbm, ⟨54, _⟩ => ⟨S1250000, .f32⟩
  | .hbm, ⟨55, _⟩ => ⟨S_, .f32⟩
  | .hbm, ⟨56, _⟩ => ⟨S100000, .f32⟩
  | .hbm, ⟨57, _⟩ => ⟨S1250000x1, .i32⟩
  | .hbm, ⟨58, _⟩ => ⟨S100000, .f32⟩
  | .hbm, ⟨59, _⟩ => ⟨S_, .f32⟩
  | .hbm, ⟨60, _⟩ => ⟨S100000, .f32⟩
  | .hbm, ⟨61, _⟩ => ⟨S100000, .f32⟩
  | .hbm, ⟨62, _⟩ => ⟨S100000x1, .f32⟩
  | .hbm, ⟨63, _⟩ => ⟨S100000x64, .f32⟩
  | .hbm, ⟨64, _⟩ => ⟨S100000x64, .f32⟩
  | .hbm, ⟨65, _⟩ => ⟨S1x64, .f32⟩
  | .hbm, ⟨66, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S10000x64, .f32⟩
  | .local _ .vmem, ⟨17, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v22) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S100000 : Shape := ⟨1, ![100000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000x1 : Shape := ⟨2, ![100000, 1]⟩
abbrev S1x64 : Shape := ⟨2, ![1, 64]⟩

abbrev nBuf : Space → Nat
  | .hbm => 95
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S1x1250000, .i32⟩
  | .hbm, ⟨10, _⟩ => ⟨S1250000, .i32⟩
  | .hbm, ⟨11, _⟩ => ⟨S1x1250000, .i32⟩
  | .hbm, ⟨12, _⟩ => ⟨S1250000, .i32⟩
  | .hbm, ⟨13, _⟩ => ⟨S_, .i32⟩
  | .hbm, ⟨14, _⟩ => ⟨S1250000, .i32⟩
  | .hbm, ⟨15, _⟩ => ⟨S1250000, .i1⟩
  | .hbm, ⟨16, _⟩ => ⟨S_, .i32⟩
  | .hbm, ⟨17, _⟩ => ⟨S1250000, .i32⟩
  | .hbm, ⟨18, _⟩ => ⟨S1250000, .i32⟩
  | .hbm, ⟨19, _⟩ => ⟨S1250000, .i32⟩
  | .hbm, ⟨20, _⟩ => ⟨S1250000x1, .i32⟩
  | .hbm, ⟨21, _⟩ => ⟨S1250000x64, .f32⟩
  | .hbm, ⟨22, _⟩ => ⟨S_, .f32⟩
  | .hbm, ⟨23, _⟩ => ⟨S100000x64, .f32⟩
  | .hbm, ⟨24, _⟩ => ⟨S1250000x1, .i32⟩
  | .hbm, ⟨25, _⟩ => ⟨S100000x64, .f32⟩
  | .hbm, ⟨26, _⟩ => ⟨S_, .f32⟩
  | .hbm, ⟨27, _⟩ => ⟨S1250000, .f32⟩
  | .hbm, ⟨28, _⟩ => ⟨S_, .f32⟩
  | .hbm, ⟨29, _⟩ => ⟨S100000, .f32⟩
  | .hbm, ⟨30, _⟩ => ⟨S1250000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S64x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S64x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .i1⟩
  | .hbm, ⟨49, _⟩ => ⟨S_, .f32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S_, .i32⟩
  | .hbm, ⟨55, _⟩ => ⟨S1250000, .i32⟩
  | .hbm, ⟨56, _⟩ => ⟨S1250000, .i1⟩
  | .hbm, ⟨57, _⟩ => ⟨S_, .i32⟩
  | .hbm, ⟨58, _⟩ => ⟨S1250000, .i32⟩
  | .hbm, ⟨59, _⟩ => ⟨S1250000, .i32⟩
  | .hbm, ⟨60, _⟩ => ⟨S1250000, .i32⟩
  | .hbm, ⟨61, _⟩ => ⟨S1250000x1, .i32⟩
  | .hbm, ⟨62, _⟩ => ⟨S1250000x64, .f32⟩
  | .hbm, ⟨63, _⟩ => ⟨S_, .f32⟩
  | .hbm, ⟨64, _⟩ => ⟨S100000x64, .f32⟩
  | .hbm, ⟨65, _⟩ => ⟨S1250000x1, .i32⟩
  | .hbm, ⟨66, _⟩ => ⟨S100000x64, .f32⟩
  | .hbm, ⟨67, _⟩ => ⟨S_, .f32⟩
  | .hbm, ⟨68, _⟩ => ⟨S1250000, .f32⟩
  | .hbm, ⟨69, _⟩ => ⟨S_, .f32⟩
  | .hbm, ⟨70, _⟩ => ⟨S100000, .f32⟩
  | .hbm, ⟨71, _⟩ => ⟨S1250000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000x1, .f32⟩
  | .hbm, ⟨77, _⟩ => ⟨S100000x64, .f32⟩
  | .hbm, ⟨78, _⟩ => ⟨S100000x64, .f32⟩
  | .hbm, ⟨79, _⟩ => ⟨S64x64, .f32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S100000x64, .f32⟩
  | .hbm, ⟨84, _⟩ => ⟨S64x64, .f32⟩
  | .hbm, ⟨85, _⟩ => ⟨S100000x64, .f32⟩
  | .hbm, ⟨86, _⟩ => ⟨S100000x64, .f32⟩
  | .hbm, ⟨87, _⟩ => ⟨S_, .f32⟩
  | .hbm, ⟨88, _⟩ => ⟨S100000x64, .f32⟩
  | .hbm, ⟨89, _⟩ => ⟨S100000x64, .i1⟩
  | .hbm, ⟨90, _⟩ => ⟨S_, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_c_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_cst_13 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x64_S64x64_S100000x64_1_0_0_1_n_n_wf : DotDims.WF S100000x64 S64x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibSageLayer.lean ====
/-
  One layer of a mean-aggregating graph convolution, read at an index, over arbitrary sizes.

  A block `A` of aggregated neighbour rows and a block `X` of the nodes' own rows (both `[m, k]`) are projected by two
  weights `Wl`, `Wr` (both `[n, k]`, applied transposed), a bias row is added, the sum passes through a leaky rectifier
  and the node's own row is added back.  At the extended reals

    • a product with a transposed weight, into a zero accumulator or on the host, is at `(a, j)` the contraction
      `∑ c, A (a, c) · W (j, c)`, whatever float formats the two factors are typed at;
    • the pre-activation is the sum of the two contractions and the bias entry, and the order in which the three are
      added does not matter: addition of extended reals is commutative and associative (also at the infinities);
    • the rectifier keeps `h` where the comparison `h ≥ z` holds and takes `α · h` elsewhere.
-/
import Idealize.ShloMosaic.Lib.StackMember
import Idealize.ShloMosaic.Lib.KernelVsHost
import Idealize.ShloMosaic.Lib.ValueLayout
import Idealize.ShloMosaic.PureOps.Ideal.Laws

noncomputable section

namespace Cert.SageLayer

open Idealize.ShloMosaic Idealize.ShloMosaic.ValueIdx Idealize.ShloMosaic.StackMember

variable {m k n : Nat}

/-! ## A product with a transposed weight -/

/-- The host's product of a block with the transpose of a weight, at `(a, j)`: both factors are read along their
    second coordinate. -/
theorem dotGeneral_weightT_apply {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (W : FVec Ideal ⟨2, ![n, k]⟩ φ₂)
    (hW : (⟨2, ![n, k]⟩ : Shape).Transposes [1, 0] ⟨2, ![k, n]⟩) (a : Fin m) (j : Fin n) :
    Host.dotGeneral d prec A (transpose ⟨2, ![k, n]⟩ [1, 0] W hW) (ix2 a j)
      = ∑ c : Fin k, A (ix2 a c) * W (ix2 j c) := by
  subst hd
  rw [dotGeneral_plain_apply]
  exact Finset.sum_congr rfl fun c _ => by rw [transpose_ix2_apply]

/-- A kernel's product of a block with the transpose of a weight, into the zero accumulator, at `(a, j)`. -/
theorem matmul_weightT_apply {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (W : FVec Ideal ⟨2, ![n, k]⟩ φ₂)
    (hW : (⟨2, ![n, k]⟩ : Shape).Transposes [1, 0] ⟨2, ![k, n]⟩) (a : Fin m) (j : Fin n) :
    matmul d prec A (transpose ⟨2, ![k, n]⟩ [1, 0] W hW) (constant ⟨2, ![m, n]⟩ .f32 0x00000000#32) (ix2 a j)
      = ∑ c : Fin k, A (ix2 a c) * W (ix2 j c) := by
  rw [matmul_zero_eq_dotGeneral]
  exact dotGeneral_weightT_apply d hd prec A W hW a j

/-! ## The layer at an entry -/

/-- The leaky rectifier with threshold `z` and slope `α`: `h` where `h ≥ z` (an ordered comparison), `α · h` elsewhere. -/
def leaky (z α h : EReal) : EReal :=
  Scalar.select (FloatOps.cmpf (F := Ideal) (φ := .f32) .oge h z) h (α * h)

/-- The layer's value at one entry, from the two contractions `sA`, `sX`, the bias entry `b` and the node's own entry
    `x`: the rectified sum plus `x`. -/
def entry (z α sA sX b x : EReal) : EReal := leaky z α (sA + b + sX) + x

/-- Adding the bias last instead of second gives the same entry. -/
theorem entry_bias_last (z α sA sX b x : EReal) : leaky z α (sA + sX + b) + x = entry z α sA sX b x := by
  unfold entry
  rw [add_right_comm sA sX b]

end Cert.SageLayer

end
-- ==== Proof.KernelBody.lean ====
/-
  The body of the update kernel at one entry of its block.

  At a grid point the body holds a block `a` of 10000 aggregated rows, the block `x` of the same 10000 nodes' own rows,
  the two 64×64 weights and the bias as one row.  Rounding to bf16 before the products is the identity on extended
  reals, so entry `(y, q)` of what it stores is the leaky rectifier of

      ∑ c, a (y, c) · Wl (q, c)  +  ∑ c, x (y, c) · Wr (q, c)  +  b (0, q)

  plus `x (y, q)`: the layer's entry with the bias added last.  Both calls of the kernel have this body (the second
  casts its second block to its own shape first, which changes nothing).
-/
import proofs.«129869_j33225867002466_1_alg».proof.Proof.Gen.KernelIdeal.Skeleton
import proofs.«129869_j33225867002466_1_alg».proof.Proof.LibSageLayer
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx Cert.SageLayer

/-- The rectifier's threshold, the word of `0.0`. -/
abbrev zeroW : EReal := Scalar.ofBits (F := Ideal) .f32 0x00000000#32
/-- The rectifier's slope, the word of `0.01` rounded to f32. -/
abbrev slopeW : EReal := Scalar.ofBits (F := Ideal) .f32 0x3C23D70A#32

theorem dot_plain : dot_S10000x64_S64x64_S10000x64_1_0_0_1_n_n = DotDims.plain 10000 64 64 := rfl

/-- One product of the body at `(y, q)`: the block's row `y` against the weight's row `q`. -/
theorem product_apply (a : FVec Ideal S10000x64 .f32) (W : FVec Ideal S64x64 .f32) (y : Fin 10000) (q : Fin 64) :
    matmul dot_S10000x64_S64x64_S10000x64_1_0_0_1_n_n none (truncf .bf16 a Facts₀.bitsLt_bf16_f32)
        (transpose S64x64 [1, 0] (truncf .bf16 W Facts₀.bitsLt_bf16_f32) Facts₀.transposes_S64x64_p1_0_S64x64)
        (constant S10000x64 .f32 0x00000000#32) (ix2 y q)
      = ∑ c : Fin 64, a (ix2 y c) * W (ix2 q c) :=
  matmul_weightT_apply (m := 10000) (k := 64) (n := 64) _ dot_plain none _ _ _ y q

/-- The bias row laid along every row of the block, at `(y, q)`. -/
theorem bias_apply (b : FVec Ideal S1x64 .f32) (y : Fin 10000) (q : Fin 64) :
    broadcastTo S10000x64 (shapeCast S1x64 b Facts₀.shapeCasts_S1x64_S1x64) Facts₀.broadcasts_S1x64_S10000x64 (ix2 y q)
      = b (ix2 (0 : Fin 1) q) := by
  rw [broadcastTo_1b_ab_apply, shapeCast_self]

/-- What the first call's body stores, at `(y, q)`. -/
theorem pay0_apply (a x : FVec Ideal S10000x64 .f32) (Wl Wr : FVec Ideal S64x64 .f32) (b : FVec Ideal S1x64 .f32)
    (y : Fin 10000) (q : Fin 64) :
    k0_pay1 (F := Ideal) a x Wl Wr b (ix2 y q)
      = entry zeroW slopeW (∑ c : Fin 64, a (ix2 y c) * Wl (ix2 q c)) (∑ c : Fin 64, x (ix2 y c) * Wr (ix2 q c))
          (b (ix2 (0 : Fin 1) q)) (x (ix2 y q)) := by
  refine Eq.trans ?_ (entry_bias_last zeroW slopeW _ _ _ _)
  unfold k0_pay1 leaky
  dsimp only
  simp only [addf_apply, select_apply, cmpf_apply, mulf_apply, broadcast_apply]
  rw [shapeCast_self a, product_apply, product_apply, bias_apply]

/-- What the second call's body stores, at `(y, q)`. -/
theorem pay1_apply (a x : FVec Ideal S10000x64 .f32) (Wl Wr : FVec Ideal S64x64 .f32) (b : FVec Ideal S1x64 .f32)
    (y : Fin 10000) (q : Fin 64) :
    k1_pay1 (F := Ideal) a x Wl Wr b (ix2 y q)
      = entry zeroW slopeW (∑ c : Fin 64, a (ix2 y c) * Wl (ix2 q c)) (∑ c : Fin 64, x (ix2 y c) * Wr (ix2 q c))
          (b (ix2 (0 : Fin 1) q)) (x (ix2 y q)) := by
  refine Eq.trans ?_ (entry_bias_last zeroW slopeW _ _ _ _)
  unfold k1_pay1 leaky
  dsimp only
  simp only [addf_apply, select_apply, cmpf_apply, mulf_apply, broadcast_apply]
  rw [shapeCast_self a, shapeCast_self x, product_apply, product_apply, bias_apply]

end Cert.KernelIdeal.Body

end
-- ==== Proof.SageSpec.lean ====
/-
  One layer as a function of whole arrays.

  For 100000 nodes with 64 features: the array of aggregated neighbour rows `A`, the nodes' own rows `X`, the two 64×64
  weights, and the bias as a function of the output feature.  Entry `(p, q)` of the result is the rectified sum of row
  `p` of `A` against row `q` of `Wl`, the bias at `q`, and row `p` of `X` against row `q` of `Wr`, plus `X (p, q)`.
-/
import proofs.«129869_j33225867002466_1_alg».proof.Proof.LibSageLayer

noncomputable section

namespace Cert.Sage

open Idealize.ShloMosaic Idealize.ShloMosaic.ValueIdx Cert.SageLayer

abbrev Nodes : Shape := ⟨2, ![100000, 64]⟩
abbrev Weight : Shape := ⟨2, ![64, 64]⟩

/-- The rectifier's threshold, the word of `0.0`. -/
abbrev zeroW : EReal := Scalar.ofBits (F := Ideal) .f32 0x00000000#32
/-- The rectifier's slope, the word of `0.01` rounded to f32. -/
abbrev slopeW : EReal := Scalar.ofBits (F := Ideal) .f32 0x3C23D70A#32

/-- One layer on whole arrays. -/
def layer (A X : Nodes.Idx → EReal) (Wl Wr : Weight.Idx → EReal) (b : Fin 64 → EReal) : Nodes.Idx → EReal :=
  fun i => entry zeroW slopeW (∑ c : Fin 64, A (ix2 (i 0 : Fin 100000) c) * Wl (ix2 (i 1 : Fin 64) c))
    (∑ c : Fin 64, X (ix2 (i 0 : Fin 100000) c) * Wr (ix2 (i 1 : Fin 64) c)) (b (i 1 : Fin 64)) (X i)

theorem layer_apply (A X : Nodes.Idx → EReal) (Wl Wr : Weight.Idx → EReal) (b : Fin 64 → EReal)
    (p : Fin 100000) (q : Fin 64) :
    layer A X Wl Wr b (ix2 p q)
      = entry zeroW slopeW (∑ c : Fin 64, A (ix2 p c) * Wl (ix2 q c)) (∑ c : Fin 64, X (ix2 p c) * Wr (ix2 q c)) (b q)
          (X (ix2 p q)) := rfl

/-- The layer only sees its bias through its 64 entries. -/
theorem layer_congr_bias (A X : Nodes.Idx → EReal) (Wl Wr : Weight.Idx → EReal) {b b' : Fin 64 → EReal} (h : ∀ q, b q = b' q) :
    layer A X Wl Wr b = layer A X Wl Wr b' := by
  rw [show b = b' from funext h]

end Cert.Sage

end
-- ==== Proof.RegionValue.lean ====
/-
  What each call of the update kernel leaves in its output array, as one function of the arrays the call finds.

  The grid has ten points; point `t` works on rows `10000·t … 10000·t + 9999` of the two node arrays and of the output,
  and on the whole of both weights and of the bias row.  Entry `(y, q)` of the block point `t` writes back is the layer's
  entry `(10000·t + y, q)` of the whole arrays; the ten blocks tile the output, so after the call the output array is the
  layer of the arrays.
-/
import proofs.«129869_j33225867002466_1_alg».proof.Proof.Gen.KernelIdeal.Frame
import proofs.«129869_j33225867002466_1_alg».proof.Proof.KernelBody
import proofs.«129869_j33225867002466_1_alg».proof.Proof.SageSpec
import Idealize.ShloMosaic.Lib.Pipeline.Value

set_option maxRecDepth 16384

noncomputable section

namespace Cert.KernelIdeal.Region

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)
open Cert.SageLayer Cert.Sage

variable (V : (c : Dev nD) → (b : Ref sig .tc) → Buf (Elt Ideal) ((c : Thread nD τ).loc b))

theorem hz : (![0, 0] : Fin 2 → Nat) = fun _ => 0 := funext fun a => by fin_cases a <;> rfl

/-- Row `y` of the block of grid point number `t` is row `10000·t + y` of the array. -/
def row (t : Nat) (ht : t < 10) (y : Fin 10000) : Fin 100000 := ⟨t * 10000 + y.val, by have := y.isLt; omega⟩

/-! ## The first call -/

/-- The printed index maps over the grid: the row-blocked windows sit at block `(t, 0)`, the others at `(0, 0)`. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The array the first call's output is, after the call: the layer of the arrays the call finds. -/
def G0 (c : Dev nD) : Nodes.Idx → EReal :=
  layer (V c main_v22) (V c main_arg0) (V c main_arg3) (V c main_arg5) (fun q => V c main_v23 (ix2 (0 : Fin 1) q))

theorem tlt0 (t : Fin cfg0.N) : t.val < 10 := (show t.val < grid0.N from t.isLt).trans_eq N_0

/-- Where an entry of a row-blocked window's block sits in its array. -/
theorem emb0_0 (t : Fin cfg0.N) (y : Fin 10000) (k : Fin 64) :
    ((cfg0.win 0).blk t).view.emb (ix2 y k) = ix2 (row t.val (tlt0 t) y) k := by
  funext a; apply Fin.ext
  match a with
  | ⟨0, _⟩ => show win0_0.index t (0 : Fin 2) * 10000 + 1 * y.val = t.val * 10000 + y.val; rw [(idx0 t).1]; omega
  | ⟨1, _⟩ => show win0_0.index t (1 : Fin 2) * 64 + 1 * k.val = k.val; rw [(idx0 t).2.1]; omega
theorem emb0_1 (t : Fin cfg0.N) (y : Fin 10000) (k : Fin 64) :
    ((cfg0.win 1).blk t).view.emb (ix2 y k) = ix2 (row t.val (tlt0 t) y) k := by
  funext a; apply Fin.ext
  match a with
  | ⟨0, _⟩ => show win0_1.index t (0 : Fin 2) * 10000 + 1 * y.val = t.val * 10000 + y.val; rw [(idx0 t).2.2.1]; omega
  | ⟨1, _⟩ => show win0_1.index t (1 : Fin 2) * 64 + 1 * k.val = k.val; rw [(idx0 t).2.2.2.1]; omega
theorem emb0_5 (t : Fin cfg0.N) (y : Fin 10000) (k : Fin 64) :
    ((cfg0.win 5).blk t).view.emb (ix2 y k) = ix2 (row t.val (tlt0 t) y) k := by
  funext a; apply Fin.ext
  match a with
  | ⟨0, _⟩ => show win0_5.index t (0 : Fin 2) * 10000 + 1 * y.val = t.val * 10000 + y.val; rw [(idx0 t).2.2.2.2.2.2.2.2.2.2.1]; omega
  | ⟨1, _⟩ => show win0_5.index t (1 : Fin 2) * 64 + 1 * k.val = k.val; rw [(idx0 t).2.2.2.2.2.2.2.2.2.2.2]; omega
/-- The whole-array windows' one block is the array. -/
theorem emb0_2 (t : Fin cfg0.N) (q k : Fin 64) : ((cfg0.win 2).blk t).view.emb (ix2 q k) = ix2 q k := by
  funext a; apply Fin.ext
  match a with
  | ⟨0, _⟩ => show win0_2.index t (0 : Fin 2) * 64 + 1 * q.val = q.val; rw [(idx0 t).2.2.2.2.1]; omega
  | ⟨1, _⟩ => show win0_2.index t (1 : Fin 2) * 64 + 1 * k.val = k.val; rw [(idx0 t).2.2.2.2.2.1]; omega
theorem emb0_3 (t : Fin cfg0.N) (q : Fin 64) : ((cfg0.win 3).blk t).view.emb (ix2 (0 : Fin 1) q) = ix2 (0 : Fin 1) q := by
  funext a; apply Fin.ext
  match a with
  | ⟨0, _⟩ => show win0_3.index t (0 : Fin 2) * 1 + 1 * 0 = 0; rw [(idx0 t).2.2.2.2.2.2.1]
  | ⟨1, _⟩ => show win0_3.index t (1 : Fin 2) * 64 + 1 * q.val = q.val; rw [(idx0 t).2.2.2.2.2.2.2.1]; omega
theorem emb0_4 (t : Fin cfg0.N) (q k : Fin 64) : ((cfg0.win 4).blk t).view.emb (ix2 q k) = ix2 q k := by
  funext a; apply Fin.ext
  match a with
  | ⟨0, _⟩ => show win0_4.index t (0 : Fin 2) * 64 + 1 * q.val = q.val; rw [(idx0 t).2.2.2.2.2.2.2.2.1]; omega
  | ⟨1, _⟩ => show win0_4.index t (1 : Fin 2) * 64 + 1 * k.val = k.val; rw [(idx0 t).2.2.2.2.2.2.2.2.2.1]; omega

/-- Each window's block read at an entry is its array read where the block sits. -/
theorem read0_0 (c : Dev nD) (t : Fin cfg0.N) (y : Fin 10000) (k : Fin 64) :
    iblk0 V c 0 t (ix2 y k) = V c main_v22 (ix2 (row t.val (tlt0 t) y) k) := by
  show V c main_v22 (((cfg0.win 0).blk t).view.emb (ix2 y k)) = _
  rw [emb0_0]
theorem read0_1 (c : Dev nD) (t : Fin cfg0.N) (y : Fin 10000) (k : Fin 64) :
    iblk0 V c 1 t (ix2 y k) = V c main_arg0 (ix2 (row t.val (tlt0 t) y) k) := by
  show V c main_arg0 (((cfg0.win 1).blk t).view.emb (ix2 y k)) = _
  rw [emb0_1]
theorem read0_2 (c : Dev nD) (t : Fin cfg0.N) (q k : Fin 64) :
    iblk0 V c 2 t (ix2 q k) = V c main_arg3 (ix2 q k) := by
  show V c main_arg3 (((cfg0.win 2).blk t).view.emb (ix2 q k)) = _
  rw [emb0_2]
theorem read0_3 (c : Dev nD) (t : Fin cfg0.N) (q : Fin 64) :
    iblk0 V c 3 t (ix2 (0 : Fin 1) q) = V c main_v23 (ix2 (0 : Fin 1) q) := by
  show V c main_v23 (((cfg0.win 3).blk t).view.emb (ix2 (0 : Fin 1) q)) = _
  rw [emb0_3]
theorem read0_4 (c : Dev nD) (t : Fin cfg0.N) (q k : Fin 64) :
    iblk0 V c 4 t (ix2 q k) = V c main_arg5 (ix2 q k) := by
  show V c main_arg5 (((cfg0.win 4).blk t).view.emb (ix2 q k)) = _
  rw [emb0_4]

/-- What point `t` writes back, entry by entry: the layer's entries of rows `10000·t …`. -/
theorem point0 (c : Dev nD) (t : Fin cfg0.N) (y : Fin 10000) (q : Fin 64) :
    k0_pay1 (F := Ideal) (iblk0 V c 0 t) (iblk0 V c 1 t) (iblk0 V c 2 t) (iblk0 V c 4 t) (iblk0 V c 3 t) (ix2 y q)
      = G0 V c (((cfg0.win 5).blk t).view.emb (ix2 y q)) := by
  rw [pay0_apply, emb0_5, G0, layer_apply]
  simp only [read0_0, read0_1, read0_2, read0_3, read0_4]

/-- WHAT POINT `t` WRITES BACK is block `t` of the layer of the arrays as the call finds them. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x64) hz, View.ld_unit_zero (S := S1x64) hz]
  funext j
  obtain ⟨y, q, rfl⟩ : ∃ (y : Fin 10000) (q : Fin 64), j = ix2 y q := ⟨j 0, j 1, eq_ix2 j⟩
  exact point0 V c t y q

/-- An index of the output array is in point `t`'s block iff its row is among the block's ten thousand. -/
theorem mem_blk0 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v24).slice (win0_5.rect t)).set ↔ _
  rw [View.set_slice_whole, Rect.mem_set_unit]
  exact Iff.rfl

/-- The ten blocks tile the output: row `r` is in the block of point `r / 10000`. -/
theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := N_0
  refine ⟨⟨(i 0).val / 10000, by rw [hN]; omega⟩, flush0_5 _, ?_⟩
  rw [mem_blk0]
  obtain ⟨-, -, -, -, -, -, -, -, -, -, e0, e1⟩ := idx0 ⟨(i 0).val / 10000, by rw [hN]; omega⟩
  intro a
  match a with
  | ⟨0, _⟩ =>
    show win0_5.index ⟨(i 0).val / 10000, _⟩ (0 : Fin 2) * 10000 ≤ (i 0).val ∧ (i 0).val < win0_5.index ⟨(i 0).val / 10000, _⟩ (0 : Fin 2) * 10000 + 10000
    rw [e0]; show (i 0).val / 10000 * 10000 ≤ (i 0).val ∧ (i 0).val < (i 0).val / 10000 * 10000 + 10000; omega
  | ⟨1, _⟩ =>
    show win0_5.index ⟨(i 0).val / 10000, _⟩ (1 : Fin 2) * 64 ≤ (i 1).val ∧ (i 1).val < win0_5.index ⟨(i 0).val / 10000, _⟩ (1 : Fin 2) * 64 + 64
    rw [e1]; omega

/-- THE OUTPUT ARRAY after the first call: the layer of the arrays the call finds. -/
theorem final0 (c : Dev nD) : (dat0 V c).arrAt 5 cfg0.N = G0 V c :=
  (dat0 V c).arrAt_eq_of_cover 5 (G0 V c) (fun t _ => flushed0_eq V c t) (cover0)

/-! ## The second call -/

/-- The printed index maps over the grid: the row-blocked windows sit at block `(t, 0)`, the others at `(0, 0)`. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The array the second call's output is, after the call: the layer of the arrays the call finds. -/
def G1 (c : Dev nD) : Nodes.Idx → EReal :=
  layer (V c main_v43) (V c main_v24) (V c main_arg6) (V c main_arg8) (fun q => V c main_v44 (ix2 (0 : Fin 1) q))

theorem tlt1 (t : Fin cfg1.N) : t.val < 10 := (show t.val < grid1.N from t.isLt).trans_eq N_1

/-- Where an entry of a row-blocked window's block sits in its array. -/
theorem emb1_0 (t : Fin cfg1.N) (y : Fin 10000) (k : Fin 64) :
    ((cfg1.win 0).blk t).view.emb (ix2 y k) = ix2 (row t.val (tlt1 t) y) k := by
  funext a; apply Fin.ext
  match a with
  | ⟨0, _⟩ => show win1_0.index t (0 : Fin 2) * 10000 + 1 * y.val = t.val * 10000 + y.val; rw [(idx1 t).1]; omega
  | ⟨1, _⟩ => show win1_0.index t (1 : Fin 2) * 64 + 1 * k.val = k.val; rw [(idx1 t).2.1]; omega
theorem emb1_1 (t : Fin cfg1.N) (y : Fin 10000) (k : Fin 64) :
    ((cfg1.win 1).blk t).view.emb (ix2 y k) = ix2 (row t.val (tlt1 t) y) k := by
  funext a; apply Fin.ext
  match a with
  | ⟨0, _⟩ => show win1_1.index t (0 : Fin 2) * 10000 + 1 * y.val = t.val * 10000 + y.val; rw [(idx1 t).2.2.1]; omega
  | ⟨1, _⟩ => show win1_1.index t (1 : Fin 2) * 64 + 1 * k.val = k.val; rw [(idx1 t).2.2.2.1]; omega
theorem emb1_5 (t : Fin cfg1.N) (y : Fin 10000) (k : Fin 64) :
    ((cfg1.win 5).blk t).view.emb (ix2 y k) = ix2 (row t.val (tlt1 t) y) k := by
  funext a; apply Fin.ext
  match a with
  | ⟨0, _⟩ => show win1_5.index t (0 : Fin 2) * 10000 + 1 * y.val = t.val * 10000 + y.val; rw [(idx1 t).2.2.2.2.2.2.2.2.2.2.1]; omega
  | ⟨1, _⟩ => show win1_5.index t (1 : Fin 2) * 64 + 1 * k.val = k.val; rw [(idx1 t).2.2.2.2.2.2.2.2.2.2.2]; omega
/-- The whole-array windows' one block is the array. -/
theorem emb1_2 (t : Fin cfg1.N) (q k : Fin 64) : ((cfg1.win 2).blk t).view.emb (ix2 q k) = ix2 q k := by
  funext a; apply Fin.ext
  match a with
  | ⟨0, _⟩ => show win1_2.index t (0 : Fin 2) * 64 + 1 * q.val = q.val; rw [(idx1 t).2.2.2.2.1]; omega
  | ⟨1, _⟩ => show win1_2.index t (1 : Fin 2) * 64 + 1 * k.val = k.val; rw [(idx1 t).2.2.2.2.2.1]; omega
theorem emb1_3 (t : Fin cfg1.N) (q : Fin 64) : ((cfg1.win 3).blk t).view.emb (ix2 (0 : Fin 1) q) = ix2 (0 : Fin 1) q := by
  funext a; apply Fin.ext
  match a with
  | ⟨0, _⟩ => show win1_3.index t (0 : Fin 2) * 1 + 1 * 0 = 0; rw [(idx1 t).2.2.2.2.2.2.1]
  | ⟨1, _⟩ => show win1_3.index t (1 : Fin 2) * 64 + 1 * q.val = q.val; rw [(idx1 t).2.2.2.2.2.2.2.1]; omega
theorem emb1_4 (t : Fin cfg1.N) (q k : Fin 64) : ((cfg1.win 4).blk t).view.emb (ix2 q k) = ix2 q k := by
  funext a; apply Fin.ext
  match a with
  | ⟨0, _⟩ => show win1_4.index t (0 : Fin 2) * 64 + 1 * q.val = q.val; rw [(idx1 t).2.2.2.2.2.2.2.2.1]; omega
  | ⟨1, _⟩ => show win1_4.index t (1 : Fin 2) * 64 + 1 * k.val = k.val; rw [(idx1 t).2.2.2.2.2.2.2.2.2.1]; omega

/-- Each window's block read at an entry is its array read where the block sits. -/
theorem read1_0 (c : Dev nD) (t : Fin cfg1.N) (y : Fin 10000) (k : Fin 64) :
    iblk1 V c 0 t (ix2 y k) = V c main_v43 (ix2 (row t.val (tlt1 t) y) k) := by
  show V c main_v43 (((cfg1.win 0).blk t).view.emb (ix2 y k)) = _
  rw [emb1_0]
theorem read1_1 (c : Dev nD) (t : Fin cfg1.N) (y : Fin 10000) (k : Fin 64) :
    iblk1 V c 1 t (ix2 y k) = V c main_v24 (ix2 (row t.val (tlt1 t) y) k) := by
  show V c main_v24 (((cfg1.win 1).blk t).view.emb (ix2 y k)) = _
  rw [emb1_1]
theorem read1_2 (c : Dev nD) (t : Fin cfg1.N) (q k : Fin 64) :
    iblk1 V c 2 t (ix2 q k) = V c main_arg6 (ix2 q k) := by
  show V c main_arg6 (((cfg1.win 2).blk t).view.emb (ix2 q k)) = _
  rw [emb1_2]
theorem read1_3 (c : Dev nD) (t : Fin cfg1.N) (q : Fin 64) :
    iblk1 V c 3 t (ix2 (0 : Fin 1) q) = V c main_v44 (ix2 (0 : Fin 1) q) := by
  show V c main_v44 (((cfg1.win 3).blk t).view.emb (ix2 (0 : Fin 1) q)) = _
  rw [emb1_3]
theorem read1_4 (c : Dev nD) (t : Fin cfg1.N) (q k : Fin 64) :
    iblk1 V c 4 t (ix2 q k) = V c main_arg8 (ix2 q k) := by
  show V c main_arg8 (((cfg1.win 4).blk t).view.emb (ix2 q k)) = _
  rw [emb1_4]

/-- What point `t` writes back, entry by entry: the layer's entries of rows `10000·t …`. -/
theorem point1 (c : Dev nD) (t : Fin cfg1.N) (y : Fin 10000) (q : Fin 64) :
    k1_pay1 (F := Ideal) (iblk1 V c 0 t) (iblk1 V c 1 t) (iblk1 V c 2 t) (iblk1 V c 4 t) (iblk1 V c 3 t) (ix2 y q)
      = G1 V c (((cfg1.win 5).blk t).view.emb (ix2 y q)) := by
  rw [pay1_apply, emb1_5, G1, layer_apply]
  simp only [read1_0, read1_1, read1_2, read1_3, read1_4]

/-- WHAT POINT `t` WRITES BACK is block `t` of the layer of the arrays as the call finds them. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x64) hz, View.ld_unit_zero (S := S1x64) hz]
  funext j
  obtain ⟨y, q, rfl⟩ : ∃ (y : Fin 10000) (q : Fin 64), j = ix2 y q := ⟨j 0, j 1, eq_ix2 j⟩
  exact point1 V c t y q

/-- An index of the output array is in point `t`'s block iff its row is among the block's ten thousand. -/
theorem mem_blk1 (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v45).slice (win1_5.rect t)).set ↔ _
  rw [View.set_slice_whole, Rect.mem_set_unit]
  exact Iff.rfl

/-- The ten blocks tile the output: row `r` is in the block of point `r / 10000`. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 10 := N_1
  refine ⟨⟨(i 0).val / 10000, by rw [hN]; omega⟩, flush1_5 _, ?_⟩
  rw [mem_blk1]
  obtain ⟨-, -, -, -, -, -, -, -, -, -, e0, e1⟩ := idx1 ⟨(i 0).val / 10000, by rw [hN]; omega⟩
  intro a
  match a with
  | ⟨0, _⟩ =>
    show win1_5.index ⟨(i 0).val / 10000, _⟩ (0 : Fin 2) * 10000 ≤ (i 0).val ∧ (i 0).val < win1_5.index ⟨(i 0).val / 10000, _⟩ (0 : Fin 2) * 10000 + 10000
    rw [e0]; show (i 0).val / 10000 * 10000 ≤ (i 0).val ∧ (i 0).val < (i 0).val / 10000 * 10000 + 10000; omega
  | ⟨1, _⟩ =>
    show win1_5.index ⟨(i 0).val / 10000, _⟩ (1 : Fin 2) * 64 ≤ (i 1).val ∧ (i 1).val < win1_5.index ⟨(i 0).val / 10000, _⟩ (1 : Fin 2) * 64 + 64
    rw [e1]; omega

/-- THE OUTPUT ARRAY after the second call: the layer of the arrays the call finds. -/
theorem final1 (c : Dev nD) : (dat1 V c).arrAt 5 cfg1.N = G1 V c :=
  (dat1 V c).arrAt_eq_of_cover 5 (G1 V c) (fun t _ => flushed1_eq V c t) (cover1)

end Cert.KernelIdeal.Region

end
-- ==== Proof.RefAgg.lean ====
/-
  The mean of the in-neighbours' rows, as one function.

  From the node rows `x`, the edges' source nodes `src` and destination nodes `dst`: gather row `src e` for every edge `e`
  (a negative index counted from the end), add it into row `dst e` of a zero array, count the edges arriving at each node
  the same way, and divide each row by its count, or by one where no edge arrives.  Both layers of the reference apply
  exactly this function: the first to the input rows, the second to the first layer's result.
-/
import proofs.«129869_j33225867002466_1_alg».proof.Proof.Gen.ReferenceIdeal.Read

noncomputable section

namespace Cert.ReferenceIdeal.Agg

open Cert.ReferenceIdeal Cert.ReferenceIdeal.Gen Cert.ReferenceIdeal.Read Idealize.ShloMosaic Idealize.ShloMosaic.TcCoe Idealize.SL.Sem

/-- The mean aggregation of `x` along the edges `src → dst`. -/
def aggFrom (x : (⟨S100000x64, .f32⟩ : BufTy).Contents (Elt Ideal)) (src dst : (⟨S1250000, .i32⟩ : BufTy).Contents (Elt Ideal)) :
    (⟨S100000x64, .f32⟩ : BufTy).Contents (Elt Ideal) :=
  Host.divf (F := Ideal)
    (Host.scatterAdd (F := Ideal) scatter_S100000x64_S1250000x1_S1250000x64_1_0_0_1
      (broadcastInDim S100000x64 ![] bcast_S_S100000x64 (constant (F := Ideal) S_ .f32 0x00000000#32))
      (broadcastInDim S1250000x1 ![0] bcast_S1250000_S1250000x1_0 dst)
      (Host.gather gather_S100000x64_S1250000x1_S1250000x64_1_0_n_n_0_1_164 x
        (broadcastInDim S1250000x1 ![0] bcast_S1250000_S1250000x1_0
          (select (cmpi .slt src (broadcastInDim S1250000 ![] bcast_S_S1250000 (constantI S_ 32 0#32)))
            (addi src (broadcastInDim S1250000 ![] bcast_S_S1250000 (constantI S_ 32 100000#32))) src))))
    (broadcastInDim S100000x64 ![0, 1] bcast_S100000x1_S100000x64_0_1
      (broadcastInDim S100000x1 ![0] bcast_S100000_S100000x1_0
        (maximumf (F := Ideal)
          (Host.scatterAdd (F := Ideal) scatter_S100000_S1250000x1_S1250000_n_0_0_1
            (broadcastInDim S100000 ![] bcast_S_S100000 (constant (F := Ideal) S_ .f32 0x00000000#32))
            (broadcastInDim S1250000x1 ![0] bcast_S1250000_S1250000x1_0 dst)
            (broadcastInDim S1250000 ![] bcast_S_S1250000 (constant (F := Ideal) S_ .f32 0x3F800000#32)))
          (broadcastInDim S100000 ![] bcast_S_S100000 (constant (F := Ideal) S_ .f32 0x3F800000#32)))))

set_option maxHeartbeats 400000 in
/-- The first layer's aggregation is this function of the input rows. -/
theorem v22_eq (x0 : (⟨S100000x64, .f32⟩ : BufTy).Contents (Elt Ideal)) (x1 : (⟨S2x1250000, .i32⟩ : BufTy).Contents (Elt Ideal)) :
    val_main_v22 (F := Ideal) x0 x1 = aggFrom x0 (val_main_v1 (F := Ideal) x1) (val_main_v3 (F := Ideal) x1) := rfl

set_option maxHeartbeats 400000 in
/-- The second layer's aggregation is this function of the first layer's result. -/
theorem v55_eq (x0 : (⟨S100000x64, .f32⟩ : BufTy).Contents (Elt Ideal)) (x1 : (⟨S2x1250000, .i32⟩ : BufTy).Contents (Elt Ideal))
    (x3 : (⟨S64x64, .f32⟩ : BufTy).Contents (Elt Ideal)) (x4 : (⟨S64, .f32⟩ : BufTy).Contents (Elt Ideal))
    (x5 : (⟨S64x64, .f32⟩ : BufTy).Contents (Elt Ideal)) :
    val_main_v55 (F := Ideal) x0 x1 x3 x4 x5
      = aggFrom (val_main_v36 (F := Ideal) x0 x1 x3 x4 x5) (val_main_v1 (F := Ideal) x1) (val_main_v3 (F := Ideal) x1) := rfl

end Cert.ReferenceIdeal.Agg

end
-- ==== Proof.HostK.lean ====
/-
  The kernel program's two stretches of host operations, read at the buffers the calls use.

  From any buffer contents `W`: the first stretch leaves, in the array the first call aggregates from, the mean
  aggregation of the input rows along the edges, and in the bias buffer the first bias as one row; the second stretch
  leaves the mean aggregation of the first call's output along the same edges, and the second bias as one row.  The
  edges' source and destination vectors are computed once, by the first stretch.  Neither stretch writes an argument or
  the first call's output.
-/
import proofs.«129869_j33225867002466_1_alg».proof.Proof.Gen.KernelIdeal.Launch
import proofs.«129869_j33225867002466_1_alg».proof.Proof.RefAgg
import Idealize.ShloMosaic.Lib.StableHlo.Run

noncomputable section

namespace Cert.KernelIdeal.HostSide

open Cert.KernelIdeal Cert.KernelIdeal.Gen
open Idealize.ShloMosaic Idealize.ShloMosaic.TcCoe Idealize.SL.Sem Idealize.ShloMosaic.StableHlo
open Cert.ReferenceIdeal.Agg (aggFrom)
open Cert.ReferenceIdeal.Read (val_main_v1 val_main_v3)

variable (W : Valuation τ sig (Elt Ideal))

/-! ## The first stretch -/

set_option maxHeartbeats 1000000 in
theorem src_eq : after (hostOps0 (F := Ideal)) W (Proc.devRef .tc main_v1)
    = val_main_v1 (F := Ideal) (W (Proc.devRef .tc main_arg1)) := by
  after_results; rfl

set_option maxHeartbeats 1000000 in
theorem dst_eq : after (hostOps0 (F := Ideal)) W (Proc.devRef .tc main_v3)
    = val_main_v3 (F := Ideal) (W (Proc.devRef .tc main_arg1)) := by
  after_results; rfl

set_option maxHeartbeats 2000000 in
theorem agg0_eq : after (hostOps0 (F := Ideal)) W (Proc.devRef .tc main_v22)
    = aggFrom (W (Proc.devRef .tc main_arg0)) (val_main_v1 (F := Ideal) (W (Proc.devRef .tc main_arg1)))
        (val_main_v3 (F := Ideal) (W (Proc.devRef .tc main_arg1))) := by
  after_results; rfl

set_option maxHeartbeats 1000000 in
theorem bias0_eq : after (hostOps0 (F := Ideal)) W (Proc.devRef .tc main_v23)
    = shapeCast S1x64 (W (Proc.devRef .tc main_arg4)) Facts₀.shapeCasts_S64_S1x64 := by
  after_results; rfl

set_option maxHeartbeats 1000000 in
theorem kept0_arg0 : after (hostOps0 (F := Ideal)) W (Proc.devRef .tc main_arg0) = W (Proc.devRef .tc main_arg0) := by
  after_results
set_option maxHeartbeats 1000000 in
theorem kept0_arg3 : after (hostOps0 (F := Ideal)) W (Proc.devRef .tc main_arg3) = W (Proc.devRef .tc main_arg3) := by
  after_results
set_option maxHeartbeats 1000000 in
theorem kept0_arg5 : after (hostOps0 (F := Ideal)) W (Proc.devRef .tc main_arg5) = W (Proc.devRef .tc main_arg5) := by
  after_results

/-! ## The second stretch -/

set_option maxHeartbeats 2000000 in
theorem agg1_eq : after (hostOps1 (F := Ideal)) W (Proc.devRef .tc main_v43)
    = aggFrom (W (Proc.devRef .tc main_v24)) (W (Proc.devRef .tc main_v1)) (W (Proc.devRef .tc main_v3)) := by
  after_results; rfl

set_option maxHeartbeats 1000000 in
theorem bias1_eq : after (hostOps1 (F := Ideal)) W (Proc.devRef .tc main_v44)
    = shapeCast S1x64 (W (Proc.devRef .tc main_arg7)) Facts₀.shapeCasts_S64_S1x64 := by
  after_results; rfl

set_option maxHeartbeats 1000000 in
theorem kept1_v24 : after (hostOps1 (F := Ideal)) W (Proc.devRef .tc main_v24) = W (Proc.devRef .tc main_v24) := by
  after_results
set_option maxHeartbeats 1000000 in
theorem kept1_arg6 : after (hostOps1 (F := Ideal)) W (Proc.devRef .tc main_arg6) = W (Proc.devRef .tc main_arg6) := by
  after_results
set_option maxHeartbeats 1000000 in
theorem kept1_arg8 : after (hostOps1 (F := Ideal)) W (Proc.devRef .tc main_arg8) = W (Proc.devRef .tc main_arg8) := by
  after_results

end Cert.KernelIdeal.HostSide

end
-- ==== Proof.SageNet.lean ====
/-
  The two layers as one function of the arguments.

  The hidden rows are the layer of the input rows' mean aggregation and the input rows, under the first weights and bias;
  the result is the layer of the hidden rows' mean aggregation and the hidden rows, under the second weights and bias.
  Both aggregations run along the same edges, whose sources are row 0 and whose destinations are row 1 of the edge array.
-/
import proofs.«129869_j33225867002466_1_alg».proof.Proof.RefAgg
import proofs.«129869_j33225867002466_1_alg».proof.Proof.SageSpec

noncomputable section

namespace Cert.Sage

open Idealize.ShloMosaic Idealize.ShloMosaic.ValueIdx Idealize.SL.Sem
open Cert.ReferenceIdeal (S100000x64 S2x1250000 S64x64 S64)
open Cert.ReferenceIdeal.Agg (aggFrom)
open Cert.ReferenceIdeal.Read (val_main_v1 val_main_v3)

/-- The hidden rows: the first layer. -/
def hiddenRows (x : (⟨S100000x64, .f32⟩ : BufTy).Contents (Elt Ideal)) (e : (⟨S2x1250000, .i32⟩ : BufTy).Contents (Elt Ideal))
    (Wl1 : (⟨S64x64, .f32⟩ : BufTy).Contents (Elt Ideal)) (b1 : (⟨S64, .f32⟩ : BufTy).Contents (Elt Ideal))
    (Wr1 : (⟨S64x64, .f32⟩ : BufTy).Contents (Elt Ideal)) : Nodes.Idx → EReal :=
  layer (aggFrom x (val_main_v1 (F := Ideal) e) (val_main_v3 (F := Ideal) e)) x Wl1 Wr1 (fun q => b1 (ix1 q))

/-- The result: the second layer over the hidden rows. -/
def net (x : (⟨S100000x64, .f32⟩ : BufTy).Contents (Elt Ideal)) (e : (⟨S2x1250000, .i32⟩ : BufTy).Contents (Elt Ideal))
    (Wl1 : (⟨S64x64, .f32⟩ : BufTy).Contents (Elt Ideal)) (b1 : (⟨S64, .f32⟩ : BufTy).Contents (Elt Ideal))
    (Wr1 Wl2 : (⟨S64x64, .f32⟩ : BufTy).Contents (Elt Ideal)) (b2 : (⟨S64, .f32⟩ : BufTy).Contents (Elt Ideal))
    (Wr2 : (⟨S64x64, .f32⟩ : BufTy).Contents (Elt Ideal)) : Nodes.Idx → EReal :=
  layer (aggFrom (hiddenRows x e Wl1 b1 Wr1) (val_main_v1 (F := Ideal) e) (val_main_v3 (F := Ideal) e)) (hiddenRows x e Wl1 b1 Wr1)
    Wl2 Wr2 (fun q => b2 (ix1 q))

end Cert.Sage

end
-- ==== Proof.KernelValue.lean ====
/-
  What the kernel program leaves in its result buffer: the two-layer function of its arguments.

  The run's last boundary holds, in the result buffer, the output array of the second call.  That array is the layer of
  what the second call finds: the mean aggregation (second host stretch) of the first call's output, that output itself,
  the second weights, and the second bias as a row.  The first call's output is in turn the layer of the mean aggregation
  (first host stretch) of the input rows, the input rows, the first weights and the first bias as a row.  The edges' source
  and destination vectors the second stretch reads were written by the first stretch and touched by nothing since; the
  arguments are as launched throughout.
-/
import proofs.«129869_j33225867002466_1_alg».proof.Proof.RegionValue
import proofs.«129869_j33225867002466_1_alg».proof.Proof.HostK
import proofs.«129869_j33225867002466_1_alg».proof.Proof.SageNet

set_option maxRecDepth 16384

noncomputable section

namespace Cert.KernelIdeal.Net

open Cert.KernelIdeal Cert.KernelIdeal.Gen Cert.KernelIdeal.Region Cert.KernelIdeal.HostSide
open Idealize.ShloMosaic Idealize.ShloMosaic.TcCoe Idealize.ShloMosaic.ValueIdx Idealize.SL.Sem
open Cert.SageLayer Cert.Sage
open Cert.ReferenceIdeal.Agg (aggFrom)
open Cert.ReferenceIdeal.Read (val_main_v1 val_main_v3)

variable (m : (ℓ : Loc nD τ sig) → Buf (Elt Ideal) ℓ) (ρ : Dev nD → PrngReg)

/-- A vector cast to one row reads, at `(0, q)`, the vector at `q`. -/
theorem row_apply (b : FVec Ideal S64 .f32) (q : Fin 64) :
    shapeCast S1x64 b Facts₀.shapeCasts_S64_S1x64 (ix2 (0 : Fin 1) q) = b (ix1 q) :=
  shapeCast_apply b Facts₀.shapeCasts_S64_S1x64 (ix2 (0 : Fin 1) q) (ix1 q) (by
    rw [Shape.rowMajor_val_two, Shape.rowMajor_val_one]; show q.val = 0 * 64 + q.val; omega)

/-! ## The first call's entry contents and output -/

theorem V1_agg (c : Dev nD) : V1 m ρ c main_v22
    = aggFrom (m ((c : Thread nD τ).loc main_arg0)) (val_main_v1 (F := Ideal) (m ((c : Thread nD τ).loc main_arg1)))
        (val_main_v3 (F := Ideal) (m ((c : Thread nD τ).loc main_arg1))) :=
  agg0_eq (W0 m ρ c)
theorem V1_arg0 (c : Dev nD) : V1 m ρ c main_arg0 = m ((c : Thread nD τ).loc main_arg0) := kept0_arg0 (W0 m ρ c)
theorem V1_arg3 (c : Dev nD) : V1 m ρ c main_arg3 = m ((c : Thread nD τ).loc main_arg3) := kept0_arg3 (W0 m ρ c)
theorem V1_arg5 (c : Dev nD) : V1 m ρ c main_arg5 = m ((c : Thread nD τ).loc main_arg5) := kept0_arg5 (W0 m ρ c)
theorem V1_bias (c : Dev nD) (q : Fin 64) :
    V1 m ρ c main_v23 (ix2 (0 : Fin 1) q) = m ((c : Thread nD τ).loc main_arg4) (ix1 q) :=
  (congrFun (bias0_eq (W0 m ρ c)) (ix2 (0 : Fin 1) q)).trans (row_apply _ q)

/-- THE FIRST CALL'S OUTPUT, at the boundary after it: the hidden rows. -/
theorem W2_hidden (c : Dev nD) : W2 m ρ c (Proc.devRef .tc main_v24)
    = hiddenRows (m ((c : Thread nD τ).loc main_arg0)) (m ((c : Thread nD τ).loc main_arg1)) (m ((c : Thread nD τ).loc main_arg3))
        (m ((c : Thread nD τ).loc main_arg4)) (m ((c : Thread nD τ).loc main_arg5)) := by
  refine (W2_arr m ρ c 5).trans ((final0 (V1 m ρ) c).trans ?_)
  unfold G0 hiddenRows
  rw [V1_agg, V1_arg0, V1_arg3, V1_arg5]
  exact layer_congr_bias _ _ _ _ (V1_bias m ρ c)

/-! ## The second call's entry contents -/

theorem W2_src (c : Dev nD) : W2 m ρ c (Proc.devRef .tc main_v1) = val_main_v1 (F := Ideal) (m ((c : Thread nD τ).loc main_arg1)) :=
  (W2_of_ne m ρ c main_v1 (by decide)).trans (src_eq (W0 m ρ c))
theorem W2_dst (c : Dev nD) : W2 m ρ c (Proc.devRef .tc main_v3) = val_main_v3 (F := Ideal) (m ((c : Thread nD τ).loc main_arg1)) :=
  (W2_of_ne m ρ c main_v3 (by decide)).trans (dst_eq (W0 m ρ c))
theorem W2_arg6 (c : Dev nD) : W2 m ρ c (Proc.devRef .tc main_arg6) = m ((c : Thread nD τ).loc main_arg6) :=
  (W2_of_ne m ρ c main_arg6 (by decide)).trans (StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem W2_arg7 (c : Dev nD) : W2 m ρ c (Proc.devRef .tc main_arg7) = m ((c : Thread nD τ).loc main_arg7) :=
  (W2_of_ne m ρ c main_arg7 (by decide)).trans (StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem W2_arg8 (c : Dev nD) : W2 m ρ c (Proc.devRef .tc main_arg8) = m ((c : Thread nD τ).loc main_arg8) :=
  (W2_of_ne m ρ c main_arg8 (by decide)).trans (StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem V3_agg (c : Dev nD) : V3 m ρ c main_v43
    = aggFrom (hiddenRows (m ((c : Thread nD τ).loc main_arg0)) (m ((c : Thread nD τ).loc main_arg1)) (m ((c : Thread nD τ).loc main_arg3))
          (m ((c : Thread nD τ).loc main_arg4)) (m ((c : Thread nD τ).loc main_arg5)))
        (val_main_v1 (F := Ideal) (m ((c : Thread nD τ).loc main_arg1))) (val_main_v3 (F := Ideal) (m ((c : Thread nD τ).loc main_arg1))) := by
  refine (agg1_eq (W2 m ρ c)).trans ?_
  rw [W2_hidden, W2_src, W2_dst]
theorem V3_hidden (c : Dev nD) : V3 m ρ c main_v24
    = hiddenRows (m ((c : Thread nD τ).loc main_arg0)) (m ((c : Thread nD τ).loc main_arg1)) (m ((c : Thread nD τ).loc main_arg3))
        (m ((c : Thread nD τ).loc main_arg4)) (m ((c : Thread nD τ).loc main_arg5)) :=
  (kept1_v24 (W2 m ρ c)).trans (W2_hidden m ρ c)
theorem V3_arg6 (c : Dev nD) : V3 m ρ c main_arg6 = m ((c : Thread nD τ).loc main_arg6) :=
  (kept1_arg6 (W2 m ρ c)).trans (W2_arg6 m ρ c)
theorem V3_arg8 (c : Dev nD) : V3 m ρ c main_arg8 = m ((c : Thread nD τ).loc main_arg8) :=
  (kept1_arg8 (W2 m ρ c)).trans (W2_arg8 m ρ c)
theorem V3_bias (c : Dev nD) (q : Fin 64) :
    V3 m ρ c main_v44 (ix2 (0 : Fin 1) q) = m ((c : Thread nD τ).loc main_arg7) (ix1 q) := by
  refine (congrFun (bias1_eq (W2 m ρ c)) (ix2 (0 : Fin 1) q)).trans ((row_apply _ q).trans ?_)
  rw [W2_arg7]

/-! ## The result -/

/-- THE RESULT BUFFER at the run's last boundary: the two-layer function of the arguments. -/
theorem W4_result (c : Dev nD) : W4 m ρ c (Proc.devRef .tc main_v45)
    = net (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) := by
  refine (W4_arr m ρ c 5).trans ((final1 (V3 m ρ) c).trans ?_)
  unfold G1 net
  rw [V3_agg, V3_hidden, V3_arg6, V3_arg8]
  exact layer_congr_bias _ _ _ _ (V3_bias m ρ c)

end Cert.KernelIdeal.Net

end
-- ==== Proof.RefLayer.lean ====
/-
  The reference's layer, as one function of its operands, and that it is the layer of the specification.

  The reference projects the aggregated rows by the transposed left weight on the host, adds the bias laid along every
  row, adds the projection of the nodes' own rows by the transposed right weight, rectifies, and adds the own rows back.
  Entry by entry that is the specification's layer: each host product is the contraction along the weights' second
  coordinate, the twice-broadcast bias reads the bias vector at the column, and the broadcast constants are their words.
-/
import proofs.«129869_j33225867002466_1_alg».proof.Proof.Gen.ReferenceIdeal.Read
import proofs.«129869_j33225867002466_1_alg».proof.Proof.SageSpec
import Idealize.ShloMosaic.Lib.ValueIdx
import Idealize.ShloMosaic.Lib.Pipeline.Value

noncomputable section

namespace Cert.ReferenceIdeal.Layer

open Cert.ReferenceIdeal Cert.ReferenceIdeal.Gen Cert.ReferenceIdeal.Read
open Idealize.ShloMosaic Idealize.ShloMosaic.TcCoe Idealize.ShloMosaic.ValueIdx Idealize.SL.Sem
open Cert.SageLayer Cert.Sage

/-- The pre-activation: projection of the aggregate, plus bias, plus projection of the own rows. -/
def preAct (a x : FVec Ideal S100000x64 .f32) (Wl : FVec Ideal S64x64 .f32)
    (bl : FVec Ideal S64 .f32) (Wr : FVec Ideal S64x64 .f32) :
    FVec Ideal S100000x64 .f32 :=
  addf (F := Ideal)
    (addf (F := Ideal)
      (Host.dotGeneral (F := Ideal) dot_S100000x64_S64x64_S100000x64_1_0_0_1_n_n none a
        (transpose S64x64 [1, 0] Wl transposes_S64x64_S64x64_1_0))
      (broadcastInDim S100000x64 ![0, 1] bcast_S1x64_S100000x64_0_1 (broadcastInDim S1x64 ![1] bcast_S64_S1x64_1 bl)))
    (Host.dotGeneral (F := Ideal) dot_S100000x64_S64x64_S100000x64_1_0_0_1_n_n none x
      (transpose S64x64 [1, 0] Wr transposes_S64x64_S64x64_1_0))

/-- The reference's layer: the rectified pre-activation plus the own rows. -/
def refLayer (a x : FVec Ideal S100000x64 .f32) (Wl : FVec Ideal S64x64 .f32)
    (bl : FVec Ideal S64 .f32) (Wr : FVec Ideal S64x64 .f32) :
    FVec Ideal S100000x64 .f32 :=
  addf (F := Ideal)
    (select
      (cmpf (F := Ideal) .oge (preAct a x Wl bl Wr)
        (broadcastInDim S100000x64 ![] bcast_S_S100000x64 (constant (F := Ideal) S_ .f32 0x00000000#32)))
      (preAct a x Wl bl Wr)
      (mulf (F := Ideal) (broadcastInDim S100000x64 ![] bcast_S_S100000x64 (constant (F := Ideal) S_ .f32 0x3C23D70A#32))
        (preAct a x Wl bl Wr)))
    x

set_option maxHeartbeats 400000 in
/-- The first layer's result is this function of the first aggregation and the input rows. -/
theorem v36_eq (x0 : (⟨S100000x64, .f32⟩ : BufTy).Contents (Elt Ideal)) (x1 : (⟨S2x1250000, .i32⟩ : BufTy).Contents (Elt Ideal))
    (x3 : (⟨S64x64, .f32⟩ : BufTy).Contents (Elt Ideal)) (x4 : (⟨S64, .f32⟩ : BufTy).Contents (Elt Ideal))
    (x5 : (⟨S64x64, .f32⟩ : BufTy).Contents (Elt Ideal)) :
    val_main_v36 (F := Ideal) x0 x1 x3 x4 x5 = refLayer (val_main_v22 (F := Ideal) x0 x1) x0 x3 x4 x5 := rfl

set_option maxHeartbeats 400000 in
/-- The result is this function of the second aggregation and the first layer's result. -/
theorem v69_eq (x0 : (⟨S100000x64, .f32⟩ : BufTy).Contents (Elt Ideal)) (x1 : (⟨S2x1250000, .i32⟩ : BufTy).Contents (Elt Ideal))
    (x3 : (⟨S64x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal))
    (x8 : (⟨S64x64, .f32⟩ : BufTy).Contents (Elt Ideal)) :
    val_main_v69 (F := Ideal) x0 x1 x3 x4 x5 x6 x7 x8
      = refLayer (val_main_v55 (F := Ideal) x0 x1 x3 x4 x5) (val_main_v36 (F := Ideal) x0 x1 x3 x4 x5) x6 x7 x8 := rfl

theorem dot_plain : dot_S100000x64_S64x64_S100000x64_1_0_0_1_n_n = DotDims.plain 100000 64 64 := rfl

/-- The bias vector made a row and laid along every row reads, at `(p, q)`, the vector at `q`. -/
theorem bias_apply (bl : FVec Ideal S64 .f32) (p : Fin 100000) (q : Fin 64) :
    broadcastInDim S100000x64 ![0, 1] bcast_S1x64_S100000x64_0_1 (broadcastInDim S1x64 ![1] bcast_S64_S1x64_1 bl) (ix2 p q)
      = bl (ix1 q) := by
  rw [broadcastInDim_oneRow_apply]
  exact broadcastInDim_apply ![1] bcast_S64_S1x64_1 bl _ (ix1 q) (fun a => match a with
    | ⟨0, _⟩ => by show q.val = if (64 : Nat) = 1 then 0 else q.val; rw [if_neg (by decide)])

/-- The pre-activation at `(p, q)`. -/
theorem preAct_apply (a x : FVec Ideal S100000x64 .f32) (Wl : FVec Ideal S64x64 .f32)
    (bl : FVec Ideal S64 .f32) (Wr : FVec Ideal S64x64 .f32)
    (p : Fin 100000) (q : Fin 64) :
    preAct a x Wl bl Wr (ix2 p q)
      = (∑ c : Fin 64, a (ix2 p c) * Wl (ix2 q c)) + bl (ix1 q) + ∑ c : Fin 64, x (ix2 p c) * Wr (ix2 q c) := by
  unfold preAct
  rw [addf_apply, addf_apply, dotGeneral_weightT_apply (m := 100000) (k := 64) (n := 64) _ dot_plain,
    dotGeneral_weightT_apply (m := 100000) (k := 64) (n := 64) _ dot_plain, bias_apply]

/-- THE REFERENCE'S LAYER IS THE SPECIFICATION'S. -/
theorem refLayer_eq (a x : FVec Ideal S100000x64 .f32) (Wl : FVec Ideal S64x64 .f32)
    (bl : FVec Ideal S64 .f32) (Wr : FVec Ideal S64x64 .f32) :
    refLayer a x Wl bl Wr = layer a x Wl Wr (fun q => bl (ix1 q)) := by
  funext i
  obtain ⟨p, q, rfl⟩ : ∃ (p : Fin 100000) (q : Fin 64), i = ix2 p q := ⟨i 0, i 1, eq_ix2 i⟩
  rw [layer_apply]
  unfold refLayer entry leaky
  simp only [addf_apply, select_apply, cmpf_apply, mulf_apply]
  rw [preAct_apply]
  rfl

end Cert.ReferenceIdeal.Layer

end
-- ==== Proof.RefValue.lean ====
/-
  The reference computes the two-layer function of its arguments: each of its layers is the specification's layer, and
  each of its aggregations is the mean aggregation along the edges.
-/
import proofs.«129869_j33225867002466_1_alg».proof.Proof.RefLayer
import proofs.«129869_j33225867002466_1_alg».proof.Proof.SageNet

noncomputable section

namespace Cert.ReferenceIdeal.Net

open Cert.ReferenceIdeal Cert.ReferenceIdeal.Gen Cert.ReferenceIdeal.Read Cert.ReferenceIdeal.Layer Cert.ReferenceIdeal.Agg
open Idealize.ShloMosaic Idealize.ShloMosaic.ValueIdx Idealize.SL.Sem
open Cert.Sage

/-- The reference's hidden rows are the specification's. -/
theorem hidden_eq (x0 : (⟨S100000x64, .f32⟩ : BufTy).Contents (Elt Ideal)) (x1 : (⟨S2x1250000, .i32⟩ : BufTy).Contents (Elt Ideal))
    (x3 : (⟨S64x64, .f32⟩ : BufTy).Contents (Elt Ideal)) (x4 : (⟨S64, .f32⟩ : BufTy).Contents (Elt Ideal))
    (x5 : (⟨S64x64, .f32⟩ : BufTy).Contents (Elt Ideal)) :
    val_main_v36 (F := Ideal) x0 x1 x3 x4 x5 = hiddenRows x0 x1 x3 x4 x5 := by
  rw [v36_eq, refLayer_eq, v22_eq]
  rfl

/-- THE REFERENCE'S RESULT is the two-layer function of its arguments. -/
theorem result_eq (x0 : (⟨S100000x64, .f32⟩ : BufTy).Contents (Elt Ideal)) (x1 : (⟨S2x1250000, .i32⟩ : BufTy).Contents (Elt Ideal))
    (x3 : (⟨S64x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal))
    (x8 : (⟨S64x64, .f32⟩ : BufTy).Contents (Elt Ideal)) :
    val_main_v69 (F := Ideal) x0 x1 x3 x4 x5 x6 x7 x8 = net x0 x1 x3 x4 x5 x6 x7 x8 := by
  rw [v69_eq, refLayer_eq, v55_eq, hidden_eq]
  rfl

end Cert.ReferenceIdeal.Net

end
-- ==== Proof.lean ====
/-
  Two layers of a mean-aggregating graph convolution with a leaky rectifier and a residual connection, on 100000 nodes
  with 64 features and 1250000 edges: the kernel program against its plain reference, over the extended reals.

  Both programs aggregate on the host: for every node the mean of its in-neighbours' rows (gather by the edge sources,
  scatter-add by the edge destinations, divide by the in-degree or by one).  The kernel program then hands the layer's
  dense part — the two 64×64 projections, the bias, the rectifier and the residual — to a call that works on ten blocks
  of 10000 rows; the reference does it on the host over the whole array.  Entry by entry both are

      leaky (∑ c, agg (p, c) · Wl (q, c)  +  b q  +  ∑ c, x (p, c) · Wr (q, c))  +  x (p, q),

  the kernel adding the bias after both products where the reference adds it between them: addition of extended reals is
  commutative and associative, so no finiteness of the inputs is needed.  The second layer repeats this on the first
  layer's result, and the host aggregation between the two calls is the same function on both sides.

  The frames of the two kernel programs are the generated ones; the reference's is its generated run with the result
  dropped.  The kernel's idealization rewrote nothing, so there is nothing to preserve.
-/
import proofs.«129869_j33225867002466_1_alg».proof.Defs
import proofs.«129869_j33225867002466_1_alg».proof.Proof.Gen.Kernel
import proofs.«129869_j33225867002466_1_alg».proof.Proof.Gen.Kernel.Skeleton
import proofs.«129869_j33225867002466_1_alg».proof.Proof.Gen.Kernel.Launch
import proofs.«129869_j33225867002466_1_alg».proof.Proof.Gen.Kernel.Points
import proofs.«129869_j33225867002466_1_alg».proof.Proof.Gen.Kernel.Frame
import proofs.«129869_j33225867002466_1_alg».proof.Proof.Gen.KernelIdeal
import proofs.«129869_j33225867002466_1_alg».proof.Proof.Gen.KernelIdeal.Skeleton
import proofs.«129869_j33225867002466_1_alg».proof.Proof.Gen.KernelIdeal.Launch
import proofs.«129869_j33225867002466_1_alg».proof.Proof.Gen.KernelIdeal.Points
import proofs.«129869_j33225867002466_1_alg».proof.Proof.Gen.KernelIdeal.Frame
import proofs.«129869_j33225867002466_1_alg».proof.Proof.Gen.ReferenceIdeal
import proofs.«129869_j33225867002466_1_alg».proof.Proof.Gen.Pre_finite_inputs
import proofs.«129869_j33225867002466_1_alg».proof.Proof.Gen.ReferenceIdeal.Run
import proofs.«129869_j33225867002466_1_alg».proof.Proof.Gen.ReferenceIdeal.Read
import proofs.«129869_j33225867002466_1_alg».proof.Proof.KernelRunKept
import proofs.«129869_j33225867002466_1_alg».proof.Proof.KernelValue
import proofs.«129869_j33225867002466_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with what it says of the result dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- Both programs end with the two-layer function of the (agreeing) arguments in their result buffers, and with the
    edge array and the batch vector, which they return untouched, as launched. -/
theorem algebraic : Cert.algebraic_KernelIdeal_ReferenceIdeal := by
  intro m ρ m' ρ' _ hagree
  refine ⟨fun c => Cert.Sage.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg2), ?_, ?_⟩
  · exact (θ_run Cert.KernelIdeal.defs _ _).mono
      (fun r h c => ⟨(h c).1.trans (Cert.KernelIdeal.Net.W4_result m ρ c), (h c).2.2.1, (h c).2.2.2.1, (h c).2⟩)
      (Cert.KernelIdeal.GenP.run_main (F := Ideal) m ρ)
  · refine (θ_run Cert.ReferenceIdeal.defs _ _).mono (fun r h c => ?_) (Cert.ReferenceIdeal.Value.run (F := Ideal) m' ρ')
    obtain ⟨e0, e1, e2, e3, e4, e5, e6, e7, e8⟩ := hagree c
    refine ⟨?_, (h c).2.1.trans e1, (h c).2.2.1.trans e2, (h c).2.2.2⟩
    rw [(h c).1, Cert.ReferenceIdeal.Read.val_main_v69_eq, Cert.ReferenceIdeal.Net.result_eq, e0, e1, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
